-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x800000 : Shape := ⟨2, ![2, 800000]⟩
abbrev S100000x64 : Shape := ⟨2, ![100000, 64]⟩
abbrev S64x128 : Shape := ⟨2, ![64, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg10 : FVec F S128x2 .f32) (main_arg11 : FVec F S2 .f32) (main_v33 : IVec S_ 1) : IVec S_ 1 :=
  let main_v34 : FVec F S128x2 .f32 := Host.absf main_arg10
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg11
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg7 : FVec F S128x128 .f32) (main_arg8 : FVec F S128 .f32) (main_arg9 : FVec F S128x128 .f32) (main_arg10 : FVec F S128x2 .f32) (main_arg11 : FVec F S2 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_arg11 main_v33

def fn {F : FTy → Type} [FloatOps F] (main_arg0 : IVec S50000 32) (main_arg1 : IVec S2x800000 32) (main_arg2 : IVec S50000 32) (main_arg3 : FVec F S100000x64 .f32) (main_arg4 : FVec F S64x128 .f32) (main_arg5 : FVec F S128 .f32) (main_arg6 : FVec F S64x128 .f32) (main_arg7 : FVec F S128x128 .f32) (main_arg8 : FVec F S128 .f32) (main_arg9 : FVec F S128x128 .f32) (main_arg10 : FVec F S128x2 .f32) (main_arg11 : FVec F S2 .f32) : IVec S_ 1 :=
  let main_v0 : FVec F S100000x64 .f32 := Host.absf main_arg3
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg4
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg6
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg7 main_arg8 main_arg9 main_arg10 main_arg11 main_v13 main_v16
-- ==== Kernel.lean ====
abbrev S50000 : Shape := ⟨1, ![50000]⟩
abbrev S2x800000 : Shape := ⟨2, ![2, 800000]⟩
abbrev S100000x64 : Shape := ⟨2, ![100000, 64]⟩
abbrev S64x128 : Shape := ⟨2, ![64, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S50000x1 : Shape := ⟨2, ![50000, 1]⟩
abbrev S50000x64 : Shape := ⟨2, ![50000, 64]⟩
abbrev S800000x1 : Shape := ⟨2, ![800000, 1]⟩
abbrev S800000x64 : Shape := ⟨2, ![800000, 64]⟩
abbrev S1x128 : Shape := ⟨2, ![1, 128]⟩
abbrev S50000x128 : Shape := ⟨2, ![50000, 128]⟩
abbrev S5000x64 : Shape := ⟨2, ![5000, 64]⟩
abbrev S5000x128 : Shape := ⟨2, ![5000, 128]⟩
abbrev S800000x128 : Shape := ⟨2, ![800000, 128]⟩
abbrev S512x128 : Shape := ⟨2, ![512, 128]⟩
abbrev S512 : Shape := ⟨1, ![512]⟩
abbrev S512x1 : Shape := ⟨2, ![512, 1]⟩
abbrev S1x2 : Shape := ⟨2, ![1, 2]⟩
abbrev S512x2 : Shape := ⟨2, ![512, 2]⟩

abbrev nBuf : Space → Nat
  | .hbm => 97
  | .vmem => 22
  | .smem => 0
  | _ => 0

abbrev bufTy : (tb : Table) → Fin (tcTables nBuf tb) → BufTy
  | .hbm, ⟨0, _⟩ => ⟨S50000, .i32⟩
  | .hbm, ⟨1, _⟩ => ⟨S2x800000, .i32⟩
  | .hbm, ⟨2, _⟩ => ⟨S50000, .i32⟩
  | .hbm, ⟨3, _⟩ => ⟨S100000x64, .f32⟩
  | .hbm, ⟨4, _⟩ => ⟨S64x128, .f32⟩
  | .hbm, ⟨5, _⟩ => ⟨S128, .f32⟩
  | .hbm, ⟨6, _⟩ => ⟨S64x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x2, .f32⟩
  | .hbm, ⟨11, _⟩ => ⟨S2, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S50000, .i32⟩
  | .hbm, ⟨18, _⟩ => ⟨S50000, .i1⟩
  | .hbm, ⟨19, _⟩ => ⟨S_, .i32⟩
  | .hbm, ⟨20, _⟩ => ⟨S50000, .i32⟩
  | .hbm, ⟨21, _⟩ => ⟨S50000, .i32⟩
  | .hbm, ⟨22, _⟩ => ⟨S50000, .i32⟩
  | .hbm, ⟨23, _⟩ => ⟨S50000x1, .i32⟩
  | .hbm, ⟨24, _⟩ => ⟨S50000x64, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x64, .f32⟩
  | .hbm, ⟨34, _⟩ => ⟨S_, .f32⟩
  | .hbm, ⟨35, _⟩ => ⟨S50000x64, .f32⟩
  | .hbm, ⟨36, _⟩ => ⟨S800000x1, .i32⟩
  | .hbm, ⟨37, _⟩ => ⟨S50000x64, .f32⟩
  | .hbm, ⟨38, _⟩ => ⟨S_, .f32⟩
  | .hbm, ⟨39, _⟩ => ⟨S800000, .f32⟩
  | .hbm, ⟨40, _⟩ => ⟨S_, .f32⟩
  | .hbm, ⟨41, _⟩ => ⟨S50000, .f32⟩
  | .hbm, ⟨42, _⟩ => ⟨S800000x1, .i32⟩
  | .hbm, ⟨43, _⟩ => ⟨S50000, .f32⟩
  | .hbm, ⟨44, _⟩ => ⟨S_, .f32⟩
  | .hbm, ⟨45, _⟩ => ⟨S50000, .f32⟩
  | .hbm, ⟨46, _⟩ => ⟨S50000, .f32⟩
  | .hbm, ⟨47, _⟩ => ⟨S50000x1, .f32⟩
  | .hbm, ⟨48, _⟩ => ⟨S50000x64, .f32⟩
  | .hbm, ⟨49, _⟩ => ⟨S50000x64, .f32⟩
  | .hbm, ⟨50, _⟩ => ⟨S1x128, .f32⟩
  | .hbm, ⟨51, _⟩ => ⟨S50000x128, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S_, .f32⟩
  | .hbm, ⟨66, _⟩ => ⟨S800000, .f32⟩
  | .hbm, ⟨67, _⟩ => ⟨S_, .f32⟩
  | .hbm, ⟨68, _⟩ => ⟨S50000, .f32⟩
  | .hbm, ⟨69, _⟩ => ⟨S800000x1, .i32⟩
  | .hbm, ⟨70, _⟩ => ⟨S50000, .f32⟩
  | .hbm, ⟨71, _⟩ => ⟨S_, .f32⟩
  | .hbm, ⟨72, _⟩ => ⟨S50000, .f32⟩
  | .hbm, ⟨73, _⟩ => ⟨S50000, .f32⟩
  | .hbm, ⟨74, _⟩ => ⟨S50000x1, .f32⟩
  | .hbm, ⟨75, _⟩ => ⟨S50000x128, .f32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S_, .f32⟩
  | .hbm, ⟨80, _⟩ => ⟨S512x128, .f32⟩
  | .hbm, ⟨81, _⟩ => ⟨S50000x1, .i32⟩
  | .hbm, ⟨82, _⟩ => ⟨S512x128, .f32⟩
  | .hbm, ⟨83, _⟩ => ⟨S_, .f32⟩
  | .hbm, ⟨84, _⟩ => ⟨S50000, .f32⟩
  | .hbm, ⟨85, _⟩ => ⟨S_, .f32⟩
  | .hbm, ⟨86, _⟩ => ⟨S512, .f32⟩
  | .hbm, ⟨87, _⟩ => ⟨S50000x1, .i32⟩
  | .hbm, ⟨88, _⟩ => ⟨S512, .f32⟩
  | .hbm, ⟨89, _⟩ => ⟨S_, .f32⟩
  | .hbm, ⟨90, _⟩ => ⟨S512, .f32⟩
  | .hbm, ⟨91, _⟩ => ⟨S512, .f32⟩
  | .hbm, ⟨92, _⟩ => ⟨S512x1, .f32⟩
  | .hbm, ⟨93, _⟩ => ⟨S512x128, .f32⟩
  | .hbm, ⟨94, _⟩ => ⟨S512x128, .f32⟩
  | .hbm, ⟨95, _⟩ => ⟨S1x2, .f32⟩
  | .hbm, ⟨96, _⟩ => ⟨S512x2, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S1x128, .f32⟩
  | .local _ .vmem, ⟨6, _⟩ => ⟨S64x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S512x128, .f32⟩
  | .local _ .vmem, ⟨19, _⟩ => ⟨S128x2, .f32⟩
  | .local _ .vmem, ⟨20, _⟩ => ⟨S1x2, .f32⟩
  | .local _ .vmem, ⟨21, _⟩ => ⟨S512x2, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_cst_10 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_11 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_12 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_13 : Ref sig .tc := ⟨.hbm, 83, rfl⟩
abbrev main_v56 : Ref sig .tc := ⟨.hbm, 84, rfl⟩
abbrev main_cst_14 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_15 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem1_0 : DmaSem sig := 19
abbrev cc2_sem2_0 : DmaSem sig := 20
abbrev cc2_sem3_0 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S512x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S50000_S50000x1_0 : S50000.BroadcastsInDim S50000x1 (![0] : Fin 1 → Fin S50000x1.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  shapeCasts_S2_S1x2 : S2.ShapeCasts S1x2
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  inb_S512x2_S512x2_0_0 : ∀ a, (![0, 0] : Fin 2 → Nat) a + S512x2.size a ≤ S512x2.size a
  h_S512x2 : 0 < S512x2.numel
  gather_S100000x64_S50000x1_S50000x64_1_0_n_n_0_1_164_wf : GatherDims.WF S100000x64 S50000x1 S50000x64 [1] [0] [] [0] [] 1 ![1, 64]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S5000x64_S64x128_S5000x128_1_0_0_1_n_n_wf : DotDims.WF S5000x64 S64x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x2_S512x2_1_0_0_1_n_n_wf : DotDims.WF S512x128 S128x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x128.size a ≤ S512x128.size a
  hwx2_0 : ∀ i : grid2.Coords, EltTy.bits .f32 = 32 ∨ (Rect.block (s := S512x128) S512x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x2.size a ≤ S128x2.size a
  hwx2_1 : ∀ i : grid2.Coords, EltTy.bits .f32 = 32 ∨ (Rect.block (s := S128x2) S128x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2.size a ≤ S1x2.size a
  hwx2_2 : ∀ i : grid2.Coords, EltTy.bits .f32 = 32 ∨ (Rect.block (s := S1x2) S1x2.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x2.size a ≤ S512x2.size a
  hwx2_3 : ∀ i : grid2.Coords, EltTy.bits .f32 = 32 ∨ (Rect.block (s := S512x2) S512x2.size (cc2_transform_3 i) (hinb2_3 i)).WholeWords (EltTy.packing .f32)

variable [Facts₀]

def gather_S100000x64_S50000x1_S50000x64_1_0_n_n_0_1_164 : GatherDims S100000x64 S50000x1 S50000x64 where
  offsetDims := [1]
  collapsedSliceDims := [0]
  operandBatchingDims := []
  startIndicesBatchingDims := []
  startIndexMap := [0]
  indexVectorDim := 1
  sliceSizes := ![1, 64]
  wf := gather_S100000x64_S50000x1_S50000x64_1_0_n_n_0_1_164_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

abbrev win0_0 : Pipeline.Window sig grid0 :=
  Pipeline.Window.ofSpec (Memref.whole main_v29) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v50) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v64) S512x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S128x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S1x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S512x2.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000 : Shape := ⟨1, ![50000]⟩
abbrev S2x800000 : Shape := ⟨2, ![2, 800000]⟩
abbrev S100000x64 : Shape := ⟨2, ![100000, 64]⟩
abbrev S64x128 : Shape := ⟨2, ![64, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S50000x1 : Shape := ⟨2, ![50000, 1]⟩
abbrev S50000x64 : Shape := ⟨2, ![50000, 64]⟩
abbrev S800000x1 : Shape := ⟨2, ![800000, 1]⟩
abbrev S800000x64 : Shape := ⟨2, ![800000, 64]⟩
abbrev S50000x128 : Shape := ⟨2, ![50000, 128]⟩
abbrev S1x128 : Shape := ⟨2, ![1, 128]⟩
abbrev S800000x128 : Shape := ⟨2, ![800000, 128]⟩
abbrev S512x128 : Shape := ⟨2, ![512, 128]⟩
abbrev S512 : Shape := ⟨1, ![512]⟩
abbrev S512x1 : Shape := ⟨2, ![512, 1]⟩
abbrev S512x2 : Shape := ⟨2, ![512, 2]⟩
abbrev S1x2 : Shape := ⟨2, ![1, 2]⟩

abbrev nBuf : Space → Nat
  | .hbm => 113
  | .vmem => 0
  | .smem => 0
  | _ => 0

abbrev bufTy : (tb : Table) → Fin (tcTables nBuf tb) → BufTy
  | .hbm, ⟨0, _⟩ => ⟨S50000, .i32⟩
  | .hbm, ⟨1, _⟩ => ⟨S2x800000, .i32⟩
  | .hbm, ⟨2, _⟩ => ⟨S50000, .i32⟩
  | .hbm, ⟨3, _⟩ => ⟨S100000x64, .f32⟩
  | .hbm, ⟨4, _⟩ => ⟨S64x128, .f32⟩
  | .hbm, ⟨5, _⟩ => ⟨S128, .f32⟩
  | .hbm, ⟨6, _⟩ => ⟨S64x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x2, .f32⟩
  | .hbm, ⟨11, _⟩ => ⟨S2, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S50000, .i32⟩
  | .hbm, ⟨18, _⟩ => ⟨S50000, .i1⟩
  | .hbm, ⟨19, _⟩ => ⟨S_, .i32⟩
  | .hbm, ⟨20, _⟩ => ⟨S50000, .i32⟩
  | .hbm, ⟨21, _⟩ => ⟨S50000, .i32⟩
  | .hbm, ⟨22, _⟩ => ⟨S50000, .i32⟩
  | .hbm, ⟨23, _⟩ => ⟨S50000x1, .i32⟩
  | .hbm, ⟨24, _⟩ => ⟨S50000x64, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x64, .f32⟩
  | .hbm, ⟨34, _⟩ => ⟨S_, .f32⟩
  | .hbm, ⟨35, _⟩ => ⟨S50000x64, .f32⟩
  | .hbm, ⟨36, _⟩ => ⟨S800000x1, .i32⟩
  | .hbm, ⟨37, _⟩ => ⟨S50000x64, .f32⟩
  | .hbm, ⟨38, _⟩ => ⟨S_, .f32⟩
  | .hbm, ⟨39, _⟩ => ⟨S800000, .f32⟩
  | .hbm, ⟨40, _⟩ => ⟨S_, .f32⟩
  | .hbm, ⟨41, _⟩ => ⟨S50000, .f32⟩
  | .hbm, ⟨42, _⟩ => ⟨S800000x1, .i32⟩
  | .hbm, ⟨43, _⟩ => ⟨S50000, .f32⟩
  | .hbm, ⟨44, _⟩ => ⟨S_, .f32⟩
  | .hbm, ⟨45, _⟩ => ⟨S50000, .f32⟩
  | .hbm, ⟨46, _⟩ => ⟨S50000, .f32⟩
  | .hbm, ⟨47, _⟩ => ⟨S50000x1, .f32⟩
  | .hbm, ⟨48, _⟩ => ⟨S50000x64, .f32⟩
  | .hbm, ⟨49, _⟩ => ⟨S50000x64, .f32⟩
  | .hbm, ⟨50, _⟩ => ⟨S50000x128, .f32⟩
  | .hbm, ⟨51, _⟩ => ⟨S1x128, .f32⟩
  | .hbm, ⟨52, _⟩ => ⟨S50000x128, .f32⟩
  | .hbm, ⟨53, _⟩ => ⟨S50000x128, .f32⟩
  | .hbm, ⟨54, _⟩ => ⟨S50000x128, .f32⟩
  | .hbm, ⟨55, _⟩ => ⟨S50000x128, .f32⟩
  | .hbm, ⟨56, _⟩ => ⟨S_, .f32⟩
  | .hbm, ⟨57, _⟩ => ⟨S50000x128, .f32⟩
  | .hbm, ⟨58, _⟩ => ⟨S50000x128, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x128, .f32⟩
  | .hbm, ⟨68, _⟩ => ⟨S_, .f32⟩
  | .hbm, ⟨69, _⟩ => ⟨S50000x128, .f32⟩
  | .hbm, ⟨70, _⟩ => ⟨S800000x1, .i32⟩
  | .hbm, ⟨71, _⟩ => ⟨S50000x128, .f32⟩
  | .hbm, ⟨72, _⟩ => ⟨S_, .f32⟩
  | .hbm, ⟨73, _⟩ => ⟨S800000, .f32⟩
  | .hbm, ⟨74, _⟩ => ⟨S_, .f32⟩
  | .hbm, ⟨75, _⟩ => ⟨S50000, .f32⟩
  | .hbm, ⟨76, _⟩ => ⟨S800000x1, .i32⟩
  | .hbm, ⟨77, _⟩ => ⟨S50000, .f32⟩
  | .hbm, ⟨78, _⟩ => ⟨S_, .f32⟩
  | .hbm, ⟨79, _⟩ => ⟨S50000, .f32⟩
  | .hbm, ⟨80, _⟩ => ⟨S50000, .f32⟩
  | .hbm, ⟨81, _⟩ => ⟨S50000x1, .f32⟩
  | .hbm, ⟨82, _⟩ => ⟨S50000x128, .f32⟩
  | .hbm, ⟨83, _⟩ => ⟨S50000x128, .f32⟩
  | .hbm, ⟨84, _⟩ => ⟨S50000x128, .f32⟩
  | .hbm, ⟨85, _⟩ => ⟨S1x128, .f32⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S50000x128, .f32⟩
  | .hbm, ⟨90, _⟩ => ⟨S_, .f32⟩
  | .hbm, ⟨91, _⟩ => ⟨S50000x128, .f32⟩
  | .hbm, ⟨92, _⟩ => ⟨S50000x128, .f32⟩
  | .hbm, ⟨93, _⟩ => ⟨S_, .f32⟩
  | .hbm, ⟨94, _⟩ => ⟨S512x128, .f32⟩
  | .hbm, ⟨95, _⟩ => ⟨S50000x1, .i32⟩
  | .hbm, ⟨96, _⟩ => ⟨S512x128, .f32⟩
  | .hbm, ⟨97, _⟩ => ⟨S_, .f32⟩
  | .hbm, ⟨98, _⟩ => ⟨S50000, .f32⟩
  | .hbm, ⟨99, _⟩ => ⟨S_, .f32⟩
  | .hbm, ⟨100, _⟩ => ⟨S512, .f32⟩
  | .hbm, ⟨101, _⟩ => ⟨S50000x1, .i32⟩
  | .hbm, ⟨102, _⟩ => ⟨S512, .f32⟩
  | .hbm, ⟨103, _⟩ => ⟨S_, .f32⟩
  | .hbm, ⟨104, _⟩ => ⟨S512, .f32⟩
  | .hbm, ⟨105, _⟩ => ⟨S512, .f32⟩
  | .hbm, ⟨106, _⟩ => ⟨S512x1, .f32⟩
  | .hbm, ⟨107, _⟩ => ⟨S512x128, .f32⟩
  | .hbm, ⟨108, _⟩ => ⟨S512x128, .f32⟩
  | .hbm, ⟨109, _⟩ => ⟨S512x2, .f32⟩
  | .hbm, ⟨110, _⟩ => ⟨S1x2, .f32⟩
  | .hbm, ⟨111, _⟩ => ⟨S512x2, .f32⟩
  | .hbm, ⟨112, _⟩ => ⟨S512x2, .f32⟩
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_call0_cst : Ref sig .tc := ⟨.hbm, 56, rfl⟩
abbrev main_call0_v0 : Ref sig .tc := ⟨.hbm, 57, rfl⟩
abbrev main_v36 : Ref sig .tc := ⟨.hbm, 58, rfl⟩
abbrev main_c_6 : Ref sig .tc := ⟨.hbm, 59, rfl⟩
abbrev main_v37 : Ref sig .tc := ⟨.hbm, 60, rfl⟩
abbrev main_v38 : Ref sig .tc := ⟨.hbm, 61, rfl⟩
abbrev main_c_7 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_cst_10 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_11 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_call1_cst : Ref sig .tc := ⟨.hbm, 90, rfl⟩
abbrev main_call1_v0 : Ref sig .tc := ⟨.hbm, 91, rfl⟩
abbrev main_v62 : Ref sig .tc := ⟨.hbm, 92, rfl⟩
abbrev main_cst_12 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_13 : Ref sig .tc := ⟨.hbm, 97, rfl⟩
abbrev main_v66 : Ref sig .tc := ⟨.hbm, 98, rfl⟩
abbrev main_cst_14 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_15 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S50000_S50000x1_0 : S50000.BroadcastsInDim S50000x1 (![0] : Fin 1 → Fin S50000x1.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  gather_S100000x64_S50000x1_S50000x64_1_0_n_n_0_1_164_wf : GatherDims.WF S100000x64 S50000x1 S50000x64 [1] [0] [] [0] [] 1 ![1, 64]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x2_S512x2_1_0_0_1_n_n_wf : DotDims.WF S512x128 S128x2 S512x2 [1] [0] [0] [1] [] []

variable [Facts₀]

def gather_S100000x64_S50000x1_S50000x64_1_0_n_n_0_1_164 : GatherDims S100000x64 S50000x1 S50000x64 where
  offsetDims := [1]
  collapsedSliceDims := [0]
  operandBatchingDims := []
  startIndicesBatchingDims := []
  startIndexMap := [0]
  indexVectorDim := 1
  sliceSizes := ![1, 64]
  wf := gather_S100000x64_S50000x1_S50000x64_1_0_n_n_0_1_164_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

class Facts : Prop extends Facts₀ where

variable [Facts]
-- ==== Proof.KernelRun.lean ====
/-
  The idealized kernel's run with its result named.

  @main is six segments: three stretches of host operations, each followed by a pipelined kernel region.  The
  buffer contents at the end of the last region are the fold `W6` of the launch memory through the six segments.
  Every weakly fair execution terminates, without a fault, with EVERY unscoped buffer at `W6` — in particular the
  result buffer, and the twelve argument buffers, which no segment writes.
-/
import proofs.«127018_j88648124990605_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the fold's
    contents `W6` and the argument arrays as launched. -/
theorem run : θ_run defs (onTc (τ := τ) (main (F := F))) ⟨m, fun _ => 0, ρ⟩ (fun r => ∀ c : Dev nD,
      r.2.mem ((c.tc : Thread nD τ).loc main_v66) = W6 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v66 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.RunValue

end
-- ==== Proof.LibPlainDot.lean ====
/-
  A plain matrix product `[a, k] × [k, b] → [a, b]` read at an entry.

  The kernel's matrix unit (into the zero accumulator) and the host's `dot_general` are both, on the extended reals, the
  sum over the dimension record's contraction index of the operands' products.  When the record contracts the left
  operand's second axis with the right operand's first — stated here as four facts about the record's operand
  indices, which each use proves by evaluating its record — that sum re-indexes to `Σ j, lhs (p, j) · rhs (j, c)`.
-/
import Idealize.ShloMosaic.Lib.ValueIdx
import Idealize.ShloMosaic.PureOps.Ideal.Laws

noncomputable section

namespace Idealize.ShloMosaic.PlainDot

open Idealize.ShloMosaic Idealize.ShloMosaic.ValueIdx

variable {a k b : ℕ} {φ₁ φ₂ : FTy}

/-- The contraction sum of a plain product at entry `(p, c)`, re-indexed by the contracted coordinate. -/
theorem sum_eq (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

/-- The matrix unit into the zero accumulator, at entry `(p, c)`. -/
theorem matmul_zero_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    matmul D prec lhs rhs (constant (F := Ideal) ⟨2, ![a, b]⟩ .f32 0x00000000#32) (ix2 p c)
      = ∑ j : Fin k, lhs (ix2 p j) * rhs (ix2 j c) :=
  (Ideal.matmul_constant_zero_apply D prec lhs rhs (ix2 p c)).trans (sum_eq D hr hs hl0 hl1 hr0 hr1 lhs rhs p c)

/-- The host's `dot_general`, at entry `(p, c)`. -/
theorem dotGeneral_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    Host.dotGeneral D prec lhs rhs (ix2 p c) = ∑ j : Fin k, lhs (ix2 p j) * rhs (ix2 j c) :=
  (Ideal.dotGeneral_apply D prec .single lhs rhs (ix2 p c)).trans (sum_eq D hr hs hl0 hl1 hr0 hr1 lhs rhs p c)

end Idealize.ShloMosaic.PlainDot

end
-- ==== Proof.LibSageLayer.lean ====
/-
  One mean-aggregation graph layer and the final projection, as functions of whole arrays, entry by entry.

  A layer takes the aggregated neighbour means `mean` and the node features `h` (both `[n, k]`), two weight matrices
  `[k, b]` and a bias row, and returns `max (mean·W_l + h·W_r + bias, 0)` — an `[n, b]` array.  The kernel adds the two
  matrix products first and the bias last; the reference adds the bias to the first product and the second product
  last.  Addition of extended reals is commutative and associative (also at the infinities), so the two orders agree:
  `add_right_comm`.  No finiteness is needed anywhere.
-/
import Idealize.ShloMosaic.Lib.ValueIdx
import Idealize.ShloMosaic.Lib.ValueLayout
import Idealize.ShloMosaic.Lib.Pipeline.Value
import Idealize.ShloMosaic.PureOps.Ideal.Laws
import proofs.«127018_j88648124990605_1_alg».proof.Proof.LibPlainDot

noncomputable section

namespace Cert.Sage

open Idealize.ShloMosaic Idealize.ShloMosaic.ValueIdx

variable {n k b : ℕ}

/-- The layer at entry `(r, q)`: `max ((Σ_j mean(r,j)·W_l(j,q) + Σ_j h(r,j)·W_r(j,q)) + bias(q), 0)`. -/
def layer (mean h : FVec Ideal ⟨2, ![n, k]⟩ .f32) (wl wr : FVec Ideal ⟨2, ![k, b]⟩ .f32) (bias : Fin b → Ideal .f32) :
    FVec Ideal ⟨2, ![n, b]⟩ .f32 := fun i =>
  max ((∑ j : Fin k, mean (ix2 (i 0) j) * wl (ix2 j (i 1)) + ∑ j : Fin k, h (ix2 (i 0) j) * wr (ix2 j (i 1))) + bias (i 1))
    (Ideal.ofBits .f32 0x00000000#32)

/-- The projection at entry `(r, q)`: `Σ_j p(r,j)·W(j,q) + bias(q)`. -/
def proj (p : FVec Ideal ⟨2, ![n, k]⟩ .f32) (w : FVec Ideal ⟨2, ![k, b]⟩ .f32) (bias : Fin b → Ideal .f32) :
    FVec Ideal ⟨2, ![n, b]⟩ .f32 := fun i =>
  (∑ j : Fin k, p (ix2 (i 0) j) * w (ix2 j (i 1))) + bias (i 1)

section
variable (D : DotDims ⟨2, ![n, k]⟩ ⟨2, ![k, b]⟩ ⟨2, ![n, b]⟩)
  (hr : D.contr.rank = 1) (hs : D.contr.size ⟨0, by omega⟩ = k)
  (hl0 : ∀ i q, (D.lhsIdx i q 0).val = (i 0).val)
  (hl1 : ∀ i q, (D.lhsIdx i q 1).val = (q ⟨0, by omega⟩).val)
  (hr0 : ∀ i q, (D.rhsIdx i q 0).val = (q ⟨0, by omega⟩).val)
  (hr1 : ∀ i q, (D.rhsIdx i q 1).val = (i 1).val)
include hr hs hl0 hl1 hr0 hr1

/-- The kernel's arithmetic on one block of rows, at entry `(p, q)` of the block: both matrix units into zero
    accumulators are plain contraction sums (the narrowing of their operands is the identity on extended reals), then the
    broadcast bias row, then the maximum with zero. -/
theorem kernel_block_apply (x0 x1 : FVec Ideal ⟨2, ![n, k]⟩ .f32) (wl wr : FVec Ideal ⟨2, ![k, b]⟩ .f32)
    (b2 : FVec Ideal ⟨2, ![1, b]⟩ .f32) (hbf : FTy.bf16.bits < FTy.f32.bits)
    (hB : (⟨2, ![1, b]⟩ : Shape).Broadcasts ⟨2, ![n, b]⟩) (p : Fin n) (q : Fin b) :
    maximumf (addf (addf
        (matmul D none (truncf .bf16 x0 hbf) (truncf .bf16 wl hbf) (constant (F := Ideal) ⟨2, ![n, b]⟩ .f32 0x00000000#32))
        (matmul D none (truncf .bf16 x1 hbf) (truncf .bf16 wr hbf) (constant (F := Ideal) ⟨2, ![n, b]⟩ .f32 0x00000000#32)))
        (broadcastTo ⟨2, ![n, b]⟩ b2 hB))
      (broadcast ⟨2, ![n, b]⟩ (Scalar.ofBits (F := Ideal) .f32 0x00000000#32)) (ix2 p q)
    = max ((∑ j : Fin k, x0 (ix2 p j) * wl (ix2 j q) + ∑ j : Fin k, x1 (ix2 p j) * wr (ix2 j q)) + b2 (ix2 (0 : Fin 1) q))
        (Ideal.ofBits .f32 0x00000000#32) := by
  rw [maximumf_apply, addf_apply, addf_apply, broadcast_apply, broadcastTo_1b_ab_apply,
    PlainDot.matmul_zero_apply D none hr hs hl0 hl1 hr0 hr1, PlainDot.matmul_zero_apply D none hr hs hl0 hl1 hr0 hr1]
  rfl

/-- The kernel's projection arithmetic at entry `(p, q)`. -/
theorem kernel_proj_apply (x0 : FVec Ideal ⟨2, ![n, k]⟩ .f32) (w : FVec Ideal ⟨2, ![k, b]⟩ .f32)
    (b2 : FVec Ideal ⟨2, ![1, b]⟩ .f32) (hbf : FTy.bf16.bits < FTy.f32.bits)
    (hB : (⟨2, ![1, b]⟩ : Shape).Broadcasts ⟨2, ![n, b]⟩) (p : Fin n) (q : Fin b) :
    addf (matmul D none (truncf .bf16 x0 hbf) (truncf .bf16 w hbf) (constant (F := Ideal) ⟨2, ![n, b]⟩ .f32 0x00000000#32))
        (broadcastTo ⟨2, ![n, b]⟩ b2 hB) (ix2 p q)
    = (∑ j : Fin k, x0 (ix2 p j) * w (ix2 j q)) + b2 (ix2 (0 : Fin 1) q) := by
  rw [addf_apply, broadcastTo_1b_ab_apply, PlainDot.matmul_zero_apply D none hr hs hl0 hl1 hr0 hr1]
  rfl

/-- The reference's layer — `max ((mean·W_l + bias) + h·W_r, 0)` over the host's contractions, the bias and the zero
    given as already-broadcast arrays — is `layer`: the two orders of the three-term sum agree. -/
theorem host_layer_eq (mean h : FVec Ideal ⟨2, ![n, k]⟩ .f32) (wl wr : FVec Ideal ⟨2, ![k, b]⟩ .f32)
    (bias : Fin b → Ideal .f32) (bb z : FVec Ideal ⟨2, ![n, b]⟩ .f32)
    (hbb : ∀ p q, bb (ix2 p q) = bias q) (hz : ∀ i, z i = Ideal.ofBits .f32 0x00000000#32) :
    maximumf (addf (addf (Host.dotGeneral D none mean wl) bb) (Host.dotGeneral D none h wr)) z
      = layer mean h wl wr bias := by
  funext i
  obtain ⟨p, q, rfl⟩ : ∃ (p : Fin n) (q : Fin b), i = ix2 p q := ⟨i 0, i 1, eq_ix2 i⟩
  rw [maximumf_apply, addf_apply, addf_apply, hbb, hz,
    PlainDot.dotGeneral_apply D none hr hs hl0 hl1 hr0 hr1, PlainDot.dotGeneral_apply D none hr hs hl0 hl1 hr0 hr1]
  rw [add_right_comm]
  rfl

/-- The reference's projection is `proj`. -/
theorem host_proj_eq (p : FVec Ideal ⟨2, ![n, k]⟩ .f32) (w : FVec Ideal ⟨2, ![k, b]⟩ .f32)
    (bias : Fin b → Ideal .f32) (bb : FVec Ideal ⟨2, ![n, b]⟩ .f32) (hbb : ∀ p q, bb (ix2 p q) = bias q) :
    addf (Host.dotGeneral D none p w) bb = proj p w bias := by
  funext i
  obtain ⟨r, q, rfl⟩ : ∃ (r : Fin n) (q : Fin b), i = ix2 r q := ⟨i 0, i 1, eq_ix2 i⟩
  rw [addf_apply, hbb, PlainDot.dotGeneral_apply D none hr hs hl0 hl1 hr0 hr1]
  rfl

end

end Cert.Sage

end
-- ==== Proof.Region0.lean ====
/-
  Region 0 of the idealized kernel (a mean-aggregation layer, 64 input features), as a function of whole arrays.

  The pipeline cuts the `[50000, ·]` arrays into ten blocks of 5000 rows; at grid point `t` the body reads rows
  `5000·t … 5000·t + 4999` of the aggregated means and of the node features, the two whole weight matrices and the bias
  row, and writes the same rows of the output.  Entry `(p, q)` of what it writes is the layer's value at row
  `5000·t + p`, column `q`; the ten blocks tile the output, so after the region the output array is the layer of the
  arrays the region found.
-/
import proofs.«127018_j88648124990605_1_alg».proof.Proof.Gen.KernelIdeal.Frame
import proofs.«127018_j88648124990605_1_alg».proof.Proof.LibSageLayer

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)

/-! ## The contraction record's operand indices -/

abbrev D := dot_S5000x64_S64x128_S5000x128_1_0_0_1_n_n

theorem D_l0 (i : S5000x128.Idx) (q : D.contr.Idx) : (D.lhsIdx i q 0).val = (i 0).val := by
  unfold DotDims.lhsIdx
  rw [dif_neg (show ¬(0 : Fin S5000x64.rank) ∈ D.lhsBatch by decide), dif_pos (show (0 : Fin S5000x64.rank) ∈ D.lhsNonContracting by decide)]
  rfl
theorem D_l1 (i : S5000x128.Idx) (q : D.contr.Idx) : (D.lhsIdx i q 1).val = (q ⟨0, by decide⟩).val :=
  D.lhsIdx_val_of_single rfl i q
theorem D_r0 (i : S5000x128.Idx) (q : D.contr.Idx) : (D.rhsIdx i q 0).val = (q ⟨0, by decide⟩).val :=
  D.rhsIdx_val_of_single rfl i q
theorem D_r1 (i : S5000x128.Idx) (q : D.contr.Idx) : (D.rhsIdx i q 1).val = (i 1).val := by
  unfold DotDims.rhsIdx
  rw [dif_neg (show ¬(1 : Fin S64x128.rank) ∈ D.rhsBatch by decide), dif_pos (show (1 : Fin S64x128.rank) ∈ D.rhsNonContracting by decide)]
  rfl

/-! ## One block -/

/-- The body's stored value at entry `(p, q)` of the block, from the blocks it loads. -/
theorem pay_apply (x0 x1 : FVec Ideal S5000x64 .f32) (x2 x4 : FVec Ideal S64x128 .f32) (x3 : FVec Ideal S1x128 .f32)
    (p : Fin 5000) (q : Fin 128) :
    k0_pay1 (F := Ideal) x0 x1 x2 x4 x3 (ix2 p q)
      = max ((∑ j : Fin 64, x0 (ix2 p j) * x2 (ix2 j q) + ∑ j : Fin 64, x1 (ix2 p j) * x4 (ix2 j q)) + x3 (ix2 (0 : Fin 1) q))
          (Ideal.ofBits .f32 0x00000000#32) := by
  unfold k0_pay1
  simp only [shapeCast_self]
  exact Cert.Sage.kernel_block_apply D rfl rfl D_l0 D_l1 D_r0 D_r1 x0 x1 x2 x4 x3 _ _ p q

/-! ## From blocks to the array -/

variable (V : (c : Dev nD) → (b : Ref sig .tc) → Buf (Elt Ideal) ((c : Thread nD τ).loc b))

/-- What the region's output array ends holding: the layer of the arrays the region finds. -/
def G (c : Dev nD) : FVec Ideal S50000x128 .f32 :=
  Cert.Sage.layer (n := 50000) (k := 64) (b := 128) (V c main_v29) (V c main_v10) (V c main_arg4) (V c main_arg6)
    (fun q => (V c main_v30 : FVec Ideal S1x128 .f32) (ix2 (0 : Fin 1) q))

theorem hz : (![0, 0] : Fin 2 → Nat) = fun _ => 0 := funext fun a => by fin_cases a <;> rfl

/-- The printed index maps over the ten points: the row-blocked windows sit at block `t`, the others at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of block `t` is row `5000·t + p` of the array. -/
def rowOf (t : Fin cfg0.N) (p : Fin 5000) : Fin 50000 :=
  ⟨t.val * 5000 + p.val, by have h : t.val < 10 := t.isLt; have := p.isLt; omega⟩

theorem read_mean (c : Dev nD) (t : Fin cfg0.N) (p : Fin 5000) (j : Fin 64) :
    iblk0 V c 0 t (ix2 p j) = (V c main_v29 : FVec Ideal S50000x64 .f32) (ix2 (rowOf t p) j) := by
  obtain ⟨e0, e1, -⟩ := idx_facts t
  show V c main_v29 (((cfg0.win 0).blk t).view.emb (ix2 p j)) = _
  refine congrArg (V c main_v29) (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 64 + 1 * j.val = j.val; rw [e1]; omega

theorem read_feat (c : Dev nD) (t : Fin cfg0.N) (p : Fin 5000) (j : Fin 64) :
    iblk0 V c 1 t (ix2 p j) = (V c main_v10 : FVec Ideal S50000x64 .f32) (ix2 (rowOf t p) j) := by
  obtain ⟨-, -, e0, e1, -⟩ := idx_facts t
  show V c main_v10 (((cfg0.win 1).blk t).view.emb (ix2 p j)) = _
  refine congrArg (V c main_v10) (funext fun a => Fin.ext ?_)
  match a with
  | ⟨0, _⟩ => show win0_1.index t (0 : Fin 2) * 5000 + 1 * p.val = t.val * 5000 + p.val; rw [e0]; omega
  | ⟨1, _⟩ => show win0_1.index t (1 : Fin 2) * 64 + 1 * j.val = j.val; rw [e1]; omega

theorem read_wl (c : Dev nD) (t : Fin cfg0.N) (j : Fin 64) (q : Fin 128) :
    iblk0 V c 2 t (ix2 j q) = (V c main_arg4 : FVec Ideal S64x128 .f32) (ix2 j q) := by
  obtain ⟨-, -, -, -, e0, e1, -⟩ := idx_facts t
  show V c main_arg4 (((cfg0.win 2).blk t).view.emb (ix2 j q)) = _
  refine congrArg (V c main_arg4) (funext fun a => Fin.ext ?_)
  match a with
  | ⟨0, _⟩ => show win0_2.index t (0 : Fin 2) * 64 + 1 * j.val = j.val; rw [e0]; omega
  | ⟨1, _⟩ => show win0_2.index t (1 : Fin 2) * 128 + 1 * q.val = q.val; rw [e1]; omega

theorem read_bias (c : Dev nD) (t : Fin cfg0.N) (q : Fin 128) :
    iblk0 V c 3 t (ix2 (0 : Fin 1) q) = (V c main_v30 : FVec Ideal S1x128 .f32) (ix2 (0 : Fin 1) q) := by
  obtain ⟨-, -, -, -, -, -, e0, e1, -⟩ := idx_facts t
  show V c main_v30 (((cfg0.win 3).blk t).view.emb (ix2 (0 : Fin 1) q)) = _
  refine congrArg (V c main_v30) (funext fun a => Fin.ext ?_)
  match a with
  | ⟨0, _⟩ => show win0_3.index t (0 : Fin 2) * 1 + 1 * 0 = 0; rw [e0]
  | ⟨1, _⟩ => show win0_3.index t (1 : Fin 2) * 128 + 1 * q.val = q.val; rw [e1]; omega

theorem read_wr (c : Dev nD) (t : Fin cfg0.N) (j : Fin 64) (q : Fin 128) :
    iblk0 V c 4 t (ix2 j q) = (V c main_arg6 : FVec Ideal S64x128 .f32) (ix2 j q) := by
  obtain ⟨-, -, -, -, -, -, -, -, e0, e1, -⟩ := idx_facts t
  show V c main_arg6 (((cfg0.win 4).blk t).view.emb (ix2 j q)) = _
  refine congrArg (V c main_arg6) (funext fun a => Fin.ext ?_)
  match a with
  | ⟨0, _⟩ => show win0_4.index t (0 : Fin 2) * 64 + 1 * j.val = j.val; rw [e0]; omega
  | ⟨1, _⟩ => show win0_4.index t (1 : Fin 2) * 128 + 1 * q.val = q.val; rw [e1]; omega

/-- Entry `(p, q)` of the output's block `t` sits at `(5000·t + p, q)` of the array. -/
theorem emb_out (t : Fin cfg0.N) (p : Fin 5000) (q : Fin 128) :
    (((cfg0.win 5).blk t).view.emb (ix2 p q) : S50000x128.Idx) = ix2 (rowOf t p) q := by
  obtain ⟨-, -, -, -, -, -, -, -, -, -, e0, e1⟩ := idx_facts t
  refine funext fun a => Fin.ext ?_
  match a with
  | ⟨0, _⟩ => show win0_5.index t (0 : Fin 2) * 5000 + 1 * p.val = t.val * 5000 + p.val; rw [e0]; omega
  | ⟨1, _⟩ => show win0_5.index t (1 : Fin 2) * 128 + 1 * q.val = q.val; rw [e1]; omega

/-- What point `t` writes back is block `t` of `G`. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x128) hz, View.ld_unit_zero (S := S1x128) hz]
  funext y
  obtain ⟨p, q, rfl⟩ : ∃ (p : Fin 5000) (q : Fin 128), y = ix2 p q := ⟨y 0, y 1, eq_ix2 y⟩
  refine (pay_apply (iblk0 V c 0 t) (iblk0 V c 1 t) (iblk0 V c 2 t) (iblk0 V c 4 t) (iblk0 V c 3 t) p q).trans ?_
  simp only [read_mean V c t, read_feat V c t, read_wl V c t, read_wr V c t, read_bias V c t]
  show _ = G V c (((cfg0.win 5).blk t).view.emb (ix2 p q))
  rw [emb_out t p q]
  rfl

/-- An index of the array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v31).slice (win0_5.rect t)).set ↔ _
  rw [View.set_slice_whole, Rect.mem_set_unit]
  exact Iff.rfl

/-- Row `r` is covered by point `r / 5000`. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  let t : Fin cfg0.N := ⟨(i 0).val / 5000, by show (i 0).val / 5000 < 10; omega⟩
  obtain ⟨-, -, -, -, -, -, -, -, -, -, e0, e1⟩ := idx_facts t
  have ht : t.val = (i 0).val / 5000 := rfl
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; rw [e0, ht]; omega
  | ⟨1, _⟩ => show win0_5.index t (1 : Fin 2) * 128 ≤ (i 1).val ∧ (i 1).val < win0_5.index t (1 : Fin 2) * 128 + 128; rw [e1]; omega

/-- The output array after the region. -/
theorem final (c : Dev nD) : (dat0 V c).arrAt 5 cfg0.N = G V c :=
  (dat0 V c).arrAt_eq_of_cover 5 (G V c) (fun t _ => flushed_eq V c t) (cover)

end Cert.KernelIdeal.Region0

end
-- ==== Proof.Region1.lean ====
/-
  Region 1 of the idealized kernel (a mean-aggregation layer, 128 input features), as a function of whole arrays.

  The pipeline cuts the `[50000, ·]` arrays into ten blocks of 5000 rows; at grid point `t` the body reads rows
  `5000·t … 5000·t + 4999` of the aggregated means and of the node features, the two whole weight matrices and the bias
  row, and writes the same rows of the output.  Entry `(p, q)` of what it writes is the layer's value at row
  `5000·t + p`, column `q`; the ten blocks tile the output, so after the region the output array is the layer of the
  arrays the region found.
-/
import proofs.«127018_j88648124990605_1_alg».proof.Proof.Gen.KernelIdeal.Frame
import proofs.«127018_j88648124990605_1_alg».proof.Proof.LibSageLayer

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

/-! ## The contraction record's operand indices -/

abbrev D := dot_S5000x128_S128x128_S5000x128_1_0_0_1_n_n

theorem D_l0 (i : S5000x128.Idx) (q : D.contr.Idx) : (D.lhsIdx i q 0).val = (i 0).val := by
  unfold DotDims.lhsIdx
  rw [dif_neg (show ¬(0 : Fin S5000x128.rank) ∈ D.lhsBatch by decide), dif_pos (show (0 : Fin S5000x128.rank) ∈ D.lhsNonContracting by decide)]
  rfl
theorem D_l1 (i : S5000x128.Idx) (q : D.contr.Idx) : (D.lhsIdx i q 1).val = (q ⟨0, by decide⟩).val :=
  D.lhsIdx_val_of_single rfl i q
theorem D_r0 (i : S5000x128.Idx) (q : D.contr.Idx) : (D.rhsIdx i q 0).val = (q ⟨0, by decide⟩).val :=
  D.rhsIdx_val_of_single rfl i q
theorem D_r1 (i : S5000x128.Idx) (q : D.contr.Idx) : (D.rhsIdx i q 1).val = (i 1).val := by
  unfold DotDims.rhsIdx
  rw [dif_neg (show ¬(1 : Fin S128x128.rank) ∈ D.rhsBatch by decide), dif_pos (show (1 : Fin S128x128.rank) ∈ D.rhsNonContracting by decide)]
  rfl

/-! ## One block -/

/-- The body's stored value at entry `(p, q)` of the block, from the blocks it loads. -/
theorem pay_apply (x0 x1 : FVec Ideal S5000x128 .f32) (x2 x4 : FVec Ideal S128x128 .f32) (x3 : FVec Ideal S1x128 .f32)
    (p : Fin 5000) (q : Fin 128) :
    k1_pay1 (F := Ideal) x0 x1 x2 x4 x3 (ix2 p q)
      = max ((∑ j : Fin 128, x0 (ix2 p j) * x2 (ix2 j q) + ∑ j : Fin 128, x1 (ix2 p j) * x4 (ix2 j q)) + x3 (ix2 (0 : Fin 1) q))
          (Ideal.ofBits .f32 0x00000000#32) := by
  unfold k1_pay1
  simp only [shapeCast_self]
  exact Cert.Sage.kernel_block_apply D rfl rfl D_l0 D_l1 D_r0 D_r1 x0 x1 x2 x4 x3 _ _ p q

/-! ## From blocks to the array -/

variable (V : (c : Dev nD) → (b : Ref sig .tc) → Buf (Elt Ideal) ((c : Thread nD τ).loc b))

/-- What the region's output array ends holding: the layer of the arrays the region finds. -/
def G (c : Dev nD) : FVec Ideal S50000x128 .f32 :=
  Cert.Sage.layer (n := 50000) (k := 128) (b := 128) (V c main_v50) (V c main_v31) (V c main_arg7) (V c main_arg9)
    (fun q => (V c main_v51 : FVec Ideal S1x128 .f32) (ix2 (0 : Fin 1) q))

theorem hz : (![0, 0] : Fin 2 → Nat) = fun _ => 0 := funext fun a => by fin_cases a <;> rfl

/-- The printed index maps over the ten points: the row-blocked windows sit at block `t`, the others at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of block `t` is row `5000·t + p` of the array. -/
def rowOf (t : Fin cfg1.N) (p : Fin 5000) : Fin 50000 :=
  ⟨t.val * 5000 + p.val, by have h : t.val < 10 := t.isLt; have := p.isLt; omega⟩

theorem read_mean (c : Dev nD) (t : Fin cfg1.N) (p : Fin 5000) (j : Fin 128) :
    iblk1 V c 0 t (ix2 p j) = (V c main_v50 : FVec Ideal S50000x128 .f32) (ix2 (rowOf t p) j) := by
  obtain ⟨e0, e1, -⟩ := idx_facts t
  show V c main_v50 (((cfg1.win 0).blk t).view.emb (ix2 p j)) = _
  refine congrArg (V c main_v50) (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 128 + 1 * j.val = j.val; rw [e1]; omega

theorem read_feat (c : Dev nD) (t : Fin cfg1.N) (p : Fin 5000) (j : Fin 128) :
    iblk1 V c 1 t (ix2 p j) = (V c main_v31 : FVec Ideal S50000x128 .f32) (ix2 (rowOf t p) j) := by
  obtain ⟨-, -, e0, e1, -⟩ := idx_facts t
  show V c main_v31 (((cfg1.win 1).blk t).view.emb (ix2 p j)) = _
  refine congrArg (V c main_v31) (funext fun a => Fin.ext ?_)
  match a with
  | ⟨0, _⟩ => show win1_1.index t (0 : Fin 2) * 5000 + 1 * p.val = t.val * 5000 + p.val; rw [e0]; omega
  | ⟨1, _⟩ => show win1_1.index t (1 : Fin 2) * 128 + 1 * j.val = j.val; rw [e1]; omega

theorem read_wl (c : Dev nD) (t : Fin cfg1.N) (j : Fin 128) (q : Fin 128) :
    iblk1 V c 2 t (ix2 j q) = (V c main_arg7 : FVec Ideal S128x128 .f32) (ix2 j q) := by
  obtain ⟨-, -, -, -, e0, e1, -⟩ := idx_facts t
  show V c main_arg7 (((cfg1.win 2).blk t).view.emb (ix2 j q)) = _
  refine congrArg (V c main_arg7) (funext fun a => Fin.ext ?_)
  match a with
  | ⟨0, _⟩ => show win1_2.index t (0 : Fin 2) * 128 + 1 * j.val = j.val; rw [e0]; omega
  | ⟨1, _⟩ => show win1_2.index t (1 : Fin 2) * 128 + 1 * q.val = q.val; rw [e1]; omega

theorem read_bias (c : Dev nD) (t : Fin cfg1.N) (q : Fin 128) :
    iblk1 V c 3 t (ix2 (0 : Fin 1) q) = (V c main_v51 : FVec Ideal S1x128 .f32) (ix2 (0 : Fin 1) q) := by
  obtain ⟨-, -, -, -, -, -, e0, e1, -⟩ := idx_facts t
  show V c main_v51 (((cfg1.win 3).blk t).view.emb (ix2 (0 : Fin 1) q)) = _
  refine congrArg (V c main_v51) (funext fun a => Fin.ext ?_)
  match a with
  | ⟨0, _⟩ => show win1_3.index t (0 : Fin 2) * 1 + 1 * 0 = 0; rw [e0]
  | ⟨1, _⟩ => show win1_3.index t (1 : Fin 2) * 128 + 1 * q.val = q.val; rw [e1]; omega

theorem read_wr (c : Dev nD) (t : Fin cfg1.N) (j : Fin 128) (q : Fin 128) :
    iblk1 V c 4 t (ix2 j q) = (V c main_arg9 : FVec Ideal S128x128 .f32) (ix2 j q) := by
  obtain ⟨-, -, -, -, -, -, -, -, e0, e1, -⟩ := idx_facts t
  show V c main_arg9 (((cfg1.win 4).blk t).view.emb (ix2 j q)) = _
  refine congrArg (V c main_arg9) (funext fun a => Fin.ext ?_)
  match a with
  | ⟨0, _⟩ => show win1_4.index t (0 : Fin 2) * 128 + 1 * j.val = j.val; rw [e0]; omega
  | ⟨1, _⟩ => show win1_4.index t (1 : Fin 2) * 128 + 1 * q.val = q.val; rw [e1]; omega

/-- Entry `(p, q)` of the output's block `t` sits at `(5000·t + p, q)` of the array. -/
theorem emb_out (t : Fin cfg1.N) (p : Fin 5000) (q : Fin 128) :
    (((cfg1.win 5).blk t).view.emb (ix2 p q) : S50000x128.Idx) = ix2 (rowOf t p) q := by
  obtain ⟨-, -, -, -, -, -, -, -, -, -, e0, e1⟩ := idx_facts t
  refine funext fun a => Fin.ext ?_
  match a with
  | ⟨0, _⟩ => show win1_5.index t (0 : Fin 2) * 5000 + 1 * p.val = t.val * 5000 + p.val; rw [e0]; omega
  | ⟨1, _⟩ => show win1_5.index t (1 : Fin 2) * 128 + 1 * q.val = q.val; rw [e1]; omega

/-- What point `t` writes back is block `t` of `G`. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  refine (pay_apply (iblk1 V c 0 t) (iblk1 V c 1 t) (iblk1 V c 2 t) (iblk1 V c 4 t) (iblk1 V c 3 t) p q).trans ?_
  simp only [read_mean V c t, read_feat V c t, read_wl V c t, read_wr V c t, read_bias V c t]
  show _ = G V c (((cfg1.win 5).blk t).view.emb (ix2 p q))
  rw [emb_out t p q]
  rfl

/-- An index of the array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v52).slice (win1_5.rect t)).set ↔ _
  rw [View.set_slice_whole, Rect.mem_set_unit]
  exact Iff.rfl

/-- Row `r` is covered by point `r / 5000`. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  let t : Fin cfg1.N := ⟨(i 0).val / 5000, by show (i 0).val / 5000 < 10; omega⟩
  obtain ⟨-, -, -, -, -, -, -, -, -, -, e0, e1⟩ := idx_facts t
  have ht : t.val = (i 0).val / 5000 := rfl
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; rw [e0, ht]; omega
  | ⟨1, _⟩ => show win1_5.index t (1 : Fin 2) * 128 ≤ (i 1).val ∧ (i 1).val < win1_5.index t (1 : Fin 2) * 128 + 128; rw [e1]; omega

/-- The output array after the region. -/
theorem final (c : Dev nD) : (dat1 V c).arrAt 5 cfg1.N = G V c :=
  (dat1 V c).arrAt_eq_of_cover 5 (G V c) (fun t _ => flushed_eq V c t) (cover)

end Cert.KernelIdeal.Region1

end
-- ==== Proof.Region2.lean ====
/-
  Region 2 of the idealized kernel (the final projection), as a function of whole arrays.

  The grid has one point; every window's block is its whole array.  The body writes
  `pooled · W_out + bias` into the `[512, 2]` output.
-/
import proofs.«127018_j88648124990605_1_alg».proof.Proof.Gen.KernelIdeal.Frame
import proofs.«127018_j88648124990605_1_alg».proof.Proof.LibSageLayer

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat)

/-! ## The contraction record's operand indices -/

abbrev D := dot_S512x128_S128x2_S512x2_1_0_0_1_n_n

theorem D_l0 (i : S512x2.Idx) (q : D.contr.Idx) : (D.lhsIdx i q 0).val = (i 0).val := by
  unfold DotDims.lhsIdx
  rw [dif_neg (show ¬(0 : Fin S512x128.rank) ∈ D.lhsBatch by decide), dif_pos (show (0 : Fin S512x128.rank) ∈ D.lhsNonContracting by decide)]
  rfl
theorem D_l1 (i : S512x2.Idx) (q : D.contr.Idx) : (D.lhsIdx i q 1).val = (q ⟨0, by decide⟩).val :=
  D.lhsIdx_val_of_single rfl i q
theorem D_r0 (i : S512x2.Idx) (q : D.contr.Idx) : (D.rhsIdx i q 0).val = (q ⟨0, by decide⟩).val :=
  D.rhsIdx_val_of_single rfl i q
theorem D_r1 (i : S512x2.Idx) (q : D.contr.Idx) : (D.rhsIdx i q 1).val = (i 1).val := by
  unfold DotDims.rhsIdx
  rw [dif_neg (show ¬(1 : Fin S128x2.rank) ∈ D.rhsBatch by decide), dif_pos (show (1 : Fin S128x2.rank) ∈ D.rhsNonContracting by decide)]
  rfl

/-! ## The one block -/

/-- The body's stored value at entry `(p, q)`, from the arrays it loads. -/
theorem pay_apply (x0 : FVec Ideal S512x128 .f32) (x1 : FVec Ideal S128x2 .f32) (x2 : FVec Ideal S1x2 .f32)
    (p : Fin 512) (q : Fin 2) :
    k2_pay1 (F := Ideal) x0 x1 x2 (ix2 p q)
      = (∑ j : Fin 128, x0 (ix2 p j) * x1 (ix2 j q)) + x2 (ix2 (0 : Fin 1) q) := by
  unfold k2_pay1
  simp only [shapeCast_self]
  exact Cert.Sage.kernel_proj_apply D rfl rfl D_l0 D_l1 D_r0 D_r1 x0 x1 x2 _ _ p q

/-! ## From the block to the array -/

variable (V : (c : Dev nD) → (b : Ref sig .tc) → Buf (Elt Ideal) ((c : Thread nD τ).loc b))

/-- What the region's output array ends holding: the projection of the arrays the region finds. -/
def G (c : Dev nD) : FVec Ideal S512x2 .f32 :=
  Cert.Sage.proj (n := 512) (k := 128) (b := 2) (V c main_v64) (V c main_arg10)
    (fun q => (V c main_v65 : FVec Ideal S1x2 .f32) (ix2 (0 : Fin 1) q))

theorem hz : (![0, 0] : Fin 2 → Nat) = fun _ => 0 := funext fun a => by fin_cases a <;> rfl

/-- The printed index maps at the one point: every window at block 0. -/
theorem idx_facts : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

theorem read_pooled (c : Dev nD) (t : Fin cfg2.N) (p : Fin 512) (j : Fin 128) :
    iblk2 V c 0 t (ix2 p j) = (V c main_v64 : FVec Ideal S512x128 .f32) (ix2 p j) := by
  obtain ⟨e0, e1, -⟩ := idx_facts t
  show V c main_v64 (((cfg2.win 0).blk t).view.emb (ix2 p j)) = _
  refine congrArg (V c main_v64) (funext fun a => Fin.ext ?_)
  match a with
  | ⟨0, _⟩ => show win2_0.index t (0 : Fin 2) * 512 + 1 * p.val = p.val; rw [e0]; omega
  | ⟨1, _⟩ => show win2_0.index t (1 : Fin 2) * 128 + 1 * j.val = j.val; rw [e1]; omega

theorem read_w (c : Dev nD) (t : Fin cfg2.N) (j : Fin 128) (q : Fin 2) :
    iblk2 V c 1 t (ix2 j q) = (V c main_arg10 : FVec Ideal S128x2 .f32) (ix2 j q) := by
  obtain ⟨-, -, e0, e1, -⟩ := idx_facts t
  show V c main_arg10 (((cfg2.win 1).blk t).view.emb (ix2 j q)) = _
  refine congrArg (V c main_arg10) (funext fun a => Fin.ext ?_)
  match a with
  | ⟨0, _⟩ => show win2_1.index t (0 : Fin 2) * 128 + 1 * j.val = j.val; rw [e0]; omega
  | ⟨1, _⟩ => show win2_1.index t (1 : Fin 2) * 2 + 1 * q.val = q.val; rw [e1]; omega

theorem read_bias (c : Dev nD) (t : Fin cfg2.N) (q : Fin 2) :
    iblk2 V c 2 t (ix2 (0 : Fin 1) q) = (V c main_v65 : FVec Ideal S1x2 .f32) (ix2 (0 : Fin 1) q) := by
  obtain ⟨-, -, -, -, e0, e1, -⟩ := idx_facts t
  show V c main_v65 (((cfg2.win 2).blk t).view.emb (ix2 (0 : Fin 1) q)) = _
  refine congrArg (V c main_v65) (funext fun a => Fin.ext ?_)
  match a with
  | ⟨0, _⟩ => show win2_2.index t (0 : Fin 2) * 1 + 1 * 0 = 0; rw [e0]
  | ⟨1, _⟩ => show win2_2.index t (1 : Fin 2) * 2 + 1 * q.val = q.val; rw [e1]; omega

/-- Entry `(p, q)` of the output's block sits at `(p, q)` of the array. -/
theorem emb_out (t : Fin cfg2.N) (p : Fin 512) (q : Fin 2) :
    (((cfg2.win 3).blk t).view.emb (ix2 p q) : S512x2.Idx) = ix2 p q := by
  obtain ⟨-, -, -, -, -, -, e0, e1⟩ := idx_facts t
  refine funext fun a => Fin.ext ?_
  match a with
  | ⟨0, _⟩ => show win2_3.index t (0 : Fin 2) * 512 + 1 * p.val = p.val; rw [e0]; omega
  | ⟨1, _⟩ => show win2_3.index t (1 : Fin 2) * 2 + 1 * q.val = q.val; rw [e1]; omega

/-- What the point writes back is the block of `G`. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz]
  simp only [View.ld_unit_zero (S := S512x128) hz, View.ld_unit_zero (S := S128x2) hz, View.ld_unit_zero (S := S1x2) hz]
  funext y
  obtain ⟨p, q, rfl⟩ : ∃ (p : Fin 512) (q : Fin 2), y = ix2 p q := ⟨y 0, y 1, eq_ix2 y⟩
  refine (pay_apply (iblk2 V c 0 t) (iblk2 V c 1 t) (iblk2 V c 2 t) p q).trans ?_
  simp only [read_pooled V c t, read_w V c t, read_bias V c t]
  show _ = G V c (((cfg2.win 3).blk t).view.emb (ix2 p q))
  rw [emb_out t p q]
  rfl

/-- An index of the array is in the point's block iff each coordinate is in the block's range on its axis. -/
theorem mem_blk (t : Fin cfg2.N) (i : S512x2.Idx) :
    i ∈ ((cfg2.win 3).blk t).view.set ↔ ∀ a : Fin 2, win2_3.index t a * S512x2.size a ≤ (i a).val ∧ (i a).val < win2_3.index t a * S512x2.size a + S512x2.size a := by
  show i ∈ ((View.whole main_v66).slice (win2_3.rect t)).set ↔ _
  rw [View.set_slice_whole, Rect.mem_set_unit]
  exact Iff.rfl

/-- The one block covers the array. -/
theorem cover (i : S512x2.Idx) :
    ∃ t : Fin cfg2.N, (cfg2.win 3).flush t = true ∧ i ∈ ((cfg2.win 3).blk t).view.set := by
  have hi0 : (i 0).val < 512 := (i 0).isLt
  have hi1 : (i 1).val < 2 := (i 1).isLt
  let t : Fin cfg2.N := ⟨0, by decide⟩
  obtain ⟨-, -, -, -, -, -, e0, e1⟩ := idx_facts t
  refine ⟨t, flush2_3 t, ?_⟩
  rw [mem_blk]
  intro a
  match a with
  | ⟨0, _⟩ => show win2_3.index t (0 : Fin 2) * 512 ≤ (i 0).val ∧ (i 0).val < win2_3.index t (0 : Fin 2) * 512 + 512; rw [e0]; omega
  | ⟨1, _⟩ => show win2_3.index t (1 : Fin 2) * 2 ≤ (i 1).val ∧ (i 1).val < win2_3.index t (1 : Fin 2) * 2 + 2; rw [e1]; omega

/-- The output array after the region. -/
theorem final (c : Dev nD) : (dat2 V c).arrAt 3 cfg2.N = G V c :=
  (dat2 V c).arrAt_eq_of_cover 3 (G V c) (fun t _ => flushed_eq V c t) (cover)

end Cert.KernelIdeal.Region2

end
-- ==== Proof.HostGlue.lean ====
/-
  The host-side graph operations both programs share, each as one function of whole arrays.

  Both programs gather an embedding row per node, aggregate neighbour features along the edge list (gather at the
  sources, scatter-add at the destinations, divide by the in-degree clamped below by one), and pool node features per
  graph the same way.  They are kept closed here: the proof only ever uses that both programs apply the SAME functions.
-/
import proofs.«127018_j88648124990605_1_alg».proof.Proof.Gen.KernelIdeal
import Idealize.ShloMosaic.PureOps.Ideal

noncomputable section

namespace Cert.KernelIdeal.Glue

open Cert.KernelIdeal Cert.KernelIdeal.Gen Idealize.ShloMosaic

/-- Row 0 of the edge list: the source node of each edge. -/
def srcIdx (e : IVec S2x800000 32) : IVec S800000 32 :=
  shapeCast _ (extractStridedSlice S1x800000 ![0, 0] e slices_S2x800000_S1x800000_0_0) shapeCasts_S1x800000_S800000

/-- Row 1 of the edge list: the destination node of each edge. -/
def dstIdx (e : IVec S2x800000 32) : IVec S800000 32 :=
  shapeCast _ (extractStridedSlice S1x800000 ![1, 0] e slices_S2x800000_S1x800000_1_0) shapeCasts_S1x800000_S800000

/-- The embedding lookup: row `x[i]` (negative indices wrapped) of the table, per node. -/
def embed (x : IVec S50000 32) (tbl : FVec Ideal S100000x64 .f32) : FVec Ideal S50000x64 .f32 :=
  Host.gather gather_S100000x64_S50000x1_S50000x64_1_0_n_n_0_1_164 tbl (broadcastInDim S50000x1 ![0] bcast_S50000_S50000x1_0 (select (cmpi .slt x (broadcastInDim S50000 ![] bcast_S_S50000 (constantI S_ 32 0#32))) (addi x (broadcastInDim S50000 ![] bcast_S_S50000 (constantI S_ 32 100000#32))) x))

/-- The source indices as a gather's index column (negative indices wrapped). -/
def wrapSrc (src : IVec S800000 32) : IVec S800000x1 32 :=
  broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)

/-- Each node's in-degree, at least one. -/
def degree (dst : IVec S800000 32) : FVec Ideal S50000 .f32 :=
  maximumf (Host.scatterAdd scatter_S50000_S800000x1_S800000_n_0_0_1 (broadcastInDim S50000 ![] bcast_S_S50000 (constant S_ .f32 0x00000000#32)) (broadcastInDim S800000x1 ![0] bcast_S800000_S800000x1_0 dst) (broadcastInDim S800000 ![] bcast_S_S800000 (constant S_ .f32 0x3F800000#32))) (broadcastInDim S50000 ![] bcast_S_S50000 (constant S_ .f32 0x3F800000#32))

/-- Mean aggregation over incoming edges of `[50000, 64]` node features: gather the source rows, scatter-add them at
    the destinations, divide each row by its in-degree (at least one). -/
def meanAgg64 (src dst : IVec S800000 32) (h : FVec Ideal S50000x64 .f32) : FVec Ideal S50000x64 .f32 :=
  Host.divf (Host.scatterAdd scatter_S50000x64_S800000x1_S800000x64_1_0_0_1 (broadcastInDim S50000x64 ![] bcast_S_S50000x64 (constant S_ .f32 0x00000000#32)) (broadcastInDim S800000x1 ![0] bcast_S800000_S800000x1_0 dst) (Host.gather gather_S50000x64_S800000x1_S800000x64_1_0_n_n_0_1_164 h (wrapSrc src))) (broadcastInDim S50000x64 ![0, 1] bcast_S50000x1_S50000x64_0_1 (broadcastInDim S50000x1 ![0] bcast_S50000_S50000x1_0 (degree dst)))

/-- Mean aggregation over incoming edges of `[50000, 128]` node features: gather the source rows, scatter-add them at
    the destinations, divide each row by its in-degree (at least one). -/
def meanAgg128 (src dst : IVec S800000 32) (h : FVec Ideal S50000x128 .f32) : FVec Ideal S50000x128 .f32 :=
  Host.divf (Host.scatterAdd scatter_S50000x128_S800000x1_S800000x128_1_0_0_1 (broadcastInDim S50000x128 ![] bcast_S_S50000x128 (constant S_ .f32 0x00000000#32)) (broadcastInDim S800000x1 ![0] bcast_S800000_S800000x1_0 dst) (Host.gather gather_S50000x128_S800000x1_S800000x128_1_0_n_n_0_1_1128 h (wrapSrc src))) (broadcastInDim S50000x128 ![0, 1] bcast_S50000x1_S50000x128_0_1 (broadcastInDim S50000x1 ![0] bcast_S50000_S50000x1_0 (degree dst)))

/-- Mean pooling of node features per graph: scatter-add at the graph ids, divide by the node count (at least one). -/
def pool (batch : IVec S50000 32) (h : FVec Ideal S50000x128 .f32) : FVec Ideal S512x128 .f32 :=
  Host.divf (Host.scatterAdd scatter_S512x128_S50000x1_S50000x128_1_0_0_1 (broadcastInDim S512x128 ![] bcast_S_S512x128 (constant S_ .f32 0x00000000#32)) (broadcastInDim S50000x1 ![0] bcast_S50000_S50000x1_0 batch) h) (broadcastInDim S512x128 ![0, 1] bcast_S512x1_S512x128_0_1 (broadcastInDim S512x1 ![0] bcast_S512_S512x1_0 (maximumf (Host.scatterAdd scatter_S512_S50000x1_S50000_n_0_0_1 (broadcastInDim S512 ![] bcast_S_S512 (constant S_ .f32 0x00000000#32)) (broadcastInDim S50000x1 ![0] bcast_S50000_S50000x1_0 batch) (broadcastInDim S50000 ![] bcast_S_S50000 (constant S_ .f32 0x3F800000#32))) (broadcastInDim S512 ![] bcast_S_S512 (constant S_ .f32 0x3F800000#32)))))

end Cert.KernelIdeal.Glue

end
-- ==== Proof.KernelValue.lean ====
/-
  The idealized kernel's result buffer as a composite of whole-array functions of the arguments.

  The contents of the buffers are followed through the six segments: each host stretch applies the shared graph
  operations to what it finds, each region leaves the layer (or the projection) of what it finds.
-/
import proofs.«127018_j88648124990605_1_alg».proof.Proof.Gen.KernelIdeal.Frame
import proofs.«127018_j88648124990605_1_alg».proof.Proof.Region0
import proofs.«127018_j88648124990605_1_alg».proof.Proof.Region1
import proofs.«127018_j88648124990605_1_alg».proof.Proof.Region2
import proofs.«127018_j88648124990605_1_alg».proof.Proof.HostGlue
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.SL.Sem Idealize.ShloMosaic.ValueIdx Idealize.ShloMosaic.StableHlo

/-! ## The composite -/

/-- Node features after the first layer. -/
def feat1 (x : IVec S50000 32) (e : IVec S2x800000 32) (tbl : FVec Ideal S100000x64 .f32)
    (w1l : FVec Ideal S64x128 .f32) (b1 : FVec Ideal S128 .f32) (w1r : FVec Ideal S64x128 .f32) : FVec Ideal S50000x128 .f32 :=
  Cert.Sage.layer (n := 50000) (k := 64) (b := 128) (Glue.meanAgg64 (Glue.srcIdx e) (Glue.dstIdx e) (Glue.embed x tbl)) (Glue.embed x tbl)
    w1l w1r (fun q => b1 (ix1 q))

/-- Node features after the second layer. -/
def feat2 (x : IVec S50000 32) (e : IVec S2x800000 32) (tbl : FVec Ideal S100000x64 .f32)
    (w1l : FVec Ideal S64x128 .f32) (b1 : FVec Ideal S128 .f32) (w1r : FVec Ideal S64x128 .f32)
    (w2l : FVec Ideal S128x128 .f32) (b2 : FVec Ideal S128 .f32) (w2r : FVec Ideal S128x128 .f32) : FVec Ideal S50000x128 .f32 :=
  Cert.Sage.layer (n := 50000) (k := 128) (b := 128) (Glue.meanAgg128 (Glue.srcIdx e) (Glue.dstIdx e) (feat1 x e tbl w1l b1 w1r))
    (feat1 x e tbl w1l b1 w1r) w2l w2r (fun q => b2 (ix1 q))

/-- The kernel's result. -/
def result (x : IVec S50000 32) (e : IVec S2x800000 32) (batch : IVec S50000 32) (tbl : FVec Ideal S100000x64 .f32)
    (w1l : FVec Ideal S64x128 .f32) (b1 : FVec Ideal S128 .f32) (w1r : FVec Ideal S64x128 .f32)
    (w2l : FVec Ideal S128x128 .f32) (b2 : FVec Ideal S128 .f32) (w2r : FVec Ideal S128x128 .f32)
    (wout : FVec Ideal S128x2 .f32) (bout : FVec Ideal S2 .f32) : FVec Ideal S512x2 .f32 :=
  Cert.Sage.proj (n := 512) (k := 128) (b := 2) (Glue.pool batch (feat2 x e tbl w1l b1 w1r w2l b2 w2r)) wout (fun q => bout (ix1 q))

variable (m : (ℓ : Loc nD τ sig) → Buf (Elt Ideal) ℓ) (ρ : Dev nD → PrngReg) (c : Dev nD)

/-! ## The first host stretch: from the launch memory to region 0's entry -/

theorem s0_mean : V1 m ρ c main_v29 = Glue.meanAgg64 (Glue.srcIdx (m ((c.tc : Thread nD τ).loc main_arg1))) (Glue.dstIdx (m ((c.tc : Thread nD τ).loc main_arg1))) (Glue.embed (m ((c.tc : Thread nD τ).loc main_arg0)) (m ((c.tc : Thread nD τ).loc main_arg3))) := by
  show StableHlo.after hostOps0 (W0 m ρ c) (Proc.devRef .tc main_v29) = _
  after_results_simp <;> rfl

theorem s0_embed : V1 m ρ c main_v10 = Glue.embed (m ((c.tc : Thread nD τ).loc main_arg0)) (m ((c.tc : Thread nD τ).loc main_arg3)) := by
  show StableHlo.after hostOps0 (W0 m ρ c) (Proc.devRef .tc main_v10) = _
  after_results_simp <;> rfl

theorem s0_bias : V1 m ρ c main_v30 = shapeCast S1x128 (m ((c.tc : Thread nD τ).loc main_arg5)) shapeCasts_S128_S1x128 := by
  show StableHlo.after hostOps0 (W0 m ρ c) (Proc.devRef .tc main_v30) = _
  after_results_simp <;> rfl

theorem s0_arg4 : V1 m ρ c main_arg4 = (m ((c.tc : Thread nD τ).loc main_arg4)) := by
  show StableHlo.after hostOps0 (W0 m ρ c) (Proc.devRef .tc main_arg4) = _
  after_results_simp <;> rfl

theorem s0_arg6 : V1 m ρ c main_arg6 = (m ((c.tc : Thread nD τ).loc main_arg6)) := by
  show StableHlo.after hostOps0 (W0 m ρ c) (Proc.devRef .tc main_arg6) = _
  after_results_simp <;> rfl

theorem s0_src : W1 m ρ c (Proc.devRef .tc main_v1) = Glue.srcIdx (m ((c.tc : Thread nD τ).loc main_arg1)) := by
  show StableHlo.after hostOps0 (W0 m ρ c) (Proc.devRef .tc main_v1) = _
  after_results_simp <;> rfl

theorem s0_dst : W1 m ρ c (Proc.devRef .tc main_v3) = Glue.dstIdx (m ((c.tc : Thread nD τ).loc main_arg1)) := by
  show StableHlo.after hostOps0 (W0 m ρ c) (Proc.devRef .tc main_v3) = _
  after_results_simp <;> rfl

theorem s0_arg2 : W1 m ρ c (Proc.devRef .tc main_arg2) = (m ((c.tc : Thread nD τ).loc main_arg2)) := by
  show StableHlo.after hostOps0 (W0 m ρ c) (Proc.devRef .tc main_arg2) = _
  after_results_simp <;> rfl

theorem s0_arg7 : W1 m ρ c (Proc.devRef .tc main_arg7) = (m ((c.tc : Thread nD τ).loc main_arg7)) := by
  show StableHlo.after hostOps0 (W0 m ρ c) (Proc.devRef .tc main_arg7) = _
  after_results_simp <;> rfl

theorem s0_arg8 : W1 m ρ c (Proc.devRef .tc main_arg8) = (m ((c.tc : Thread nD τ).loc main_arg8)) := by
  show StableHlo.after hostOps0 (W0 m ρ c) (Proc.devRef .tc main_arg8) = _
  after_results_simp <;> rfl

theorem s0_arg9 : W1 m ρ c (Proc.devRef .tc main_arg9) = (m ((c.tc : Thread nD τ).loc main_arg9)) := by
  show StableHlo.after hostOps0 (W0 m ρ c) (Proc.devRef .tc main_arg9) = _
  after_results_simp <;> rfl

theorem s0_arg10 : W1 m ρ c (Proc.devRef .tc main_arg10) = (m ((c.tc : Thread nD τ).loc main_arg10)) := by
  show StableHlo.after hostOps0 (W0 m ρ c) (Proc.devRef .tc main_arg10) = _
  after_results_simp <;> rfl

theorem s0_arg11 : W1 m ρ c (Proc.devRef .tc main_arg11) = (m ((c.tc : Thread nD τ).loc main_arg11)) := by
  show StableHlo.after hostOps0 (W0 m ρ c) (Proc.devRef .tc main_arg11) = _
  after_results_simp <;> rfl

/-! ## Region 0: the first layer -/

/-- After region 0 its output array holds the first layer's features. -/
theorem r0_feat : W2 m ρ c (Proc.devRef .tc main_v31) = feat1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  refine (W2_arr m ρ c 5).trans ?_
  rw [Region0.final (V1 m ρ) c]
  unfold Region0.G feat1
  rw [s0_mean m ρ c, s0_embed m ρ c, s0_arg4 m ρ c, s0_arg6 m ρ c]
  refine congrArg (Cert.Sage.layer (n := 50000) (k := 64) (b := 128) _ _ _ _) (funext fun q => ?_)
  rw [s0_bias m ρ c]
  exact shapeCast_a_1a_apply _ _ 0 q

theorem r0_src : W2 m ρ c (Proc.devRef .tc main_v1) = Glue.srcIdx (m ((c.tc : Thread nD τ).loc main_arg1)) := (W2_of_ne m ρ c main_v1 (by decide)).trans (s0_src m ρ c)
theorem r0_dst : W2 m ρ c (Proc.devRef .tc main_v3) = Glue.dstIdx (m ((c.tc : Thread nD τ).loc main_arg1)) := (W2_of_ne m ρ c main_v3 (by decide)).trans (s0_dst m ρ c)
theorem r0_arg2 : W2 m ρ c (Proc.devRef .tc main_arg2) = (m ((c.tc : Thread nD τ).loc main_arg2)) := (W2_of_ne m ρ c main_arg2 (by decide)).trans (s0_arg2 m ρ c)
theorem r0_arg7 : W2 m ρ c (Proc.devRef .tc main_arg7) = (m ((c.tc : Thread nD τ).loc main_arg7)) := (W2_of_ne m ρ c main_arg7 (by decide)).trans (s0_arg7 m ρ c)
theorem r0_arg8 : W2 m ρ c (Proc.devRef .tc main_arg8) = (m ((c.tc : Thread nD τ).loc main_arg8)) := (W2_of_ne m ρ c main_arg8 (by decide)).trans (s0_arg8 m ρ c)
theorem r0_arg9 : W2 m ρ c (Proc.devRef .tc main_arg9) = (m ((c.tc : Thread nD τ).loc main_arg9)) := (W2_of_ne m ρ c main_arg9 (by decide)).trans (s0_arg9 m ρ c)
theorem r0_arg10 : W2 m ρ c (Proc.devRef .tc main_arg10) = (m ((c.tc : Thread nD τ).loc main_arg10)) := (W2_of_ne m ρ c main_arg10 (by decide)).trans (s0_arg10 m ρ c)
theorem r0_arg11 : W2 m ρ c (Proc.devRef .tc main_arg11) = (m ((c.tc : Thread nD τ).loc main_arg11)) := (W2_of_ne m ρ c main_arg11 (by decide)).trans (s0_arg11 m ρ c)

/-! ## The second host stretch -/

theorem s1_mean : V3 m ρ c main_v50 = Glue.meanAgg128 (W2 m ρ c (Proc.devRef .tc main_v1)) (W2 m ρ c (Proc.devRef .tc main_v3)) (W2 m ρ c (Proc.devRef .tc main_v31)) := by
  show StableHlo.after hostOps1 (W2 m ρ c) (Proc.devRef .tc main_v50) = _
  after_results_simp <;> rfl

theorem s1_feat : V3 m ρ c main_v31 = W2 m ρ c (Proc.devRef .tc main_v31) := by
  show StableHlo.after hostOps1 (W2 m ρ c) (Proc.devRef .tc main_v31) = _
  after_results_simp <;> rfl

theorem s1_bias : V3 m ρ c main_v51 = shapeCast S1x128 (W2 m ρ c (Proc.devRef .tc main_arg8)) shapeCasts_S128_S1x128 := by
  show StableHlo.after hostOps1 (W2 m ρ c) (Proc.devRef .tc main_v51) = _
  after_results_simp <;> rfl

theorem s1_arg7 : V3 m ρ c main_arg7 = W2 m ρ c (Proc.devRef .tc main_arg7) := by
  show StableHlo.after hostOps1 (W2 m ρ c) (Proc.devRef .tc main_arg7) = _
  after_results_simp <;> rfl

theorem s1_arg9 : V3 m ρ c main_arg9 = W2 m ρ c (Proc.devRef .tc main_arg9) := by
  show StableHlo.after hostOps1 (W2 m ρ c) (Proc.devRef .tc main_arg9) = _
  after_results_simp <;> rfl

theorem s1_arg2 : W3 m ρ c (Proc.devRef .tc main_arg2) = W2 m ρ c (Proc.devRef .tc main_arg2) := by
  show StableHlo.after hostOps1 (W2 m ρ c) (Proc.devRef .tc main_arg2) = _
  after_results_simp <;> rfl

theorem s1_arg10 : W3 m ρ c (Proc.devRef .tc main_arg10) = W2 m ρ c (Proc.devRef .tc main_arg10) := by
  show StableHlo.after hostOps1 (W2 m ρ c) (Proc.devRef .tc main_arg10) = _
  after_results_simp <;> rfl

theorem s1_arg11 : W3 m ρ c (Proc.devRef .tc main_arg11) = W2 m ρ c (Proc.devRef .tc main_arg11) := by
  show StableHlo.after hostOps1 (W2 m ρ c) (Proc.devRef .tc main_arg11) = _
  after_results_simp <;> rfl

/-! ## Region 1: the second layer -/

/-- After region 1 its output array holds the second layer's features. -/
theorem r1_feat : W4 m ρ c (Proc.devRef .tc main_v52)
    = feat2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (W4_arr m ρ c 5).trans ?_
  rw [Region1.final (V3 m ρ) c]
  unfold Region1.G feat2
  rw [s1_mean m ρ c, s1_feat m ρ c, s1_arg7 m ρ c, s1_arg9 m ρ c, r0_src m ρ c, r0_dst m ρ c, r0_feat m ρ c, r0_arg7 m ρ c, r0_arg9 m ρ c]
  refine congrArg (Cert.Sage.layer (n := 50000) (k := 128) (b := 128) _ _ _ _) (funext fun q => ?_)
  rw [s1_bias m ρ c, r0_arg8 m ρ c]
  exact shapeCast_a_1a_apply _ _ 0 q

theorem r1_arg2 : W4 m ρ c (Proc.devRef .tc main_arg2) = (m ((c.tc : Thread nD τ).loc main_arg2)) := (W4_of_ne m ρ c main_arg2 (by decide)).trans ((s1_arg2 m ρ c).trans (r0_arg2 m ρ c))
theorem r1_arg10 : W4 m ρ c (Proc.devRef .tc main_arg10) = (m ((c.tc : Thread nD τ).loc main_arg10)) := (W4_of_ne m ρ c main_arg10 (by decide)).trans ((s1_arg10 m ρ c).trans (r0_arg10 m ρ c))
theorem r1_arg11 : W4 m ρ c (Proc.devRef .tc main_arg11) = (m ((c.tc : Thread nD τ).loc main_arg11)) := (W4_of_ne m ρ c main_arg11 (by decide)).trans ((s1_arg11 m ρ c).trans (r0_arg11 m ρ c))

/-! ## The third host stretch -/

theorem s2_pool : V5 m ρ c main_v64 = Glue.pool (W4 m ρ c (Proc.devRef .tc main_arg2)) (W4 m ρ c (Proc.devRef .tc main_v52)) := by
  show StableHlo.after hostOps2 (W4 m ρ c) (Proc.devRef .tc main_v64) = _
  after_results_simp <;> rfl

theorem s2_bias : V5 m ρ c main_v65 = shapeCast S1x2 (W4 m ρ c (Proc.devRef .tc main_arg11)) shapeCasts_S2_S1x2 := by
  show StableHlo.after hostOps2 (W4 m ρ c) (Proc.devRef .tc main_v65) = _
  after_results_simp <;> rfl

theorem s2_arg10 : V5 m ρ c main_arg10 = W4 m ρ c (Proc.devRef .tc main_arg10) := by
  show StableHlo.after hostOps2 (W4 m ρ c) (Proc.devRef .tc main_arg10) = _
  after_results_simp <;> rfl

/-! ## Region 2: the projection -/

/-- After the last region the result buffer holds the composite of the argument arrays. -/
theorem result_eq : W6 m ρ c (Proc.devRef .tc main_v66)
    = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine (W6_arr m ρ c 3).trans ?_
  rw [Region2.final (V5 m ρ) c]
  unfold Region2.G result
  rw [s2_pool m ρ c, s2_arg10 m ρ c, r1_arg2 m ρ c, r1_feat m ρ c, r1_arg10 m ρ c]
  refine congrArg (Cert.Sage.proj (n := 512) (k := 128) (b := 2) _ _) (funext fun q => ?_)
  rw [s2_bias m ρ c, r1_arg11 m ρ c]
  exact shapeCast_a_1a_apply _ _ 0 q

end Cert.KernelIdeal.KValue

end
-- ==== Proof.RefValue.lean ====
/-
  The reference's result as a composite of whole-array functions.

  The reference computes: the embedding lookup; two layers, each the shared mean aggregation followed by
  `max ((mean·W_l + bias) + h·W_r, 0)`; the shared mean pooling; and `pooled·W_out + bias`.  Each dense step is the
  specification's `layer` / `proj` (the two orders of the three-term sum agree on the extended reals).
-/
import proofs.«127018_j88648124990605_1_alg».proof.Proof.Gen.ReferenceIdeal.Read
import proofs.«127018_j88648124990605_1_alg».proof.Proof.HostGlue
import proofs.«127018_j88648124990605_1_alg».proof.Proof.LibSageLayer

noncomputable section

namespace Cert.ReferenceIdeal.RefValue

open Cert.ReferenceIdeal Cert.ReferenceIdeal.Gen Idealize.ShloMosaic Idealize.ShloMosaic.TcCoe Idealize.SL.Sem
open Idealize.ShloMosaic.ValueIdx
open Cert.KernelIdeal (Glue.srcIdx Glue.dstIdx Glue.embed Glue.meanAgg64 Glue.meanAgg128 Glue.pool)

abbrev D1 := dot_S50000x64_S64x128_S50000x128_1_0_0_1_n_n
abbrev D2 := dot_S50000x128_S128x128_S50000x128_1_0_0_1_n_n
abbrev D3 := dot_S512x128_S128x2_S512x2_1_0_0_1_n_n

/-! ## The broadcasts read at an entry -/

/-- A `[128]` bias viewed as a `[1, 128]` row and repeated down 50000 rows reads, at `(p, q)`, the bias at `q`. -/
theorem bias_row_apply (b : FVec Ideal S128 .f32) (p : Fin 50000) (q : Fin 128) :
    broadcastInDim S50000x128 ![0, 1] bcast_S1x128_S50000x128_0_1 (broadcastInDim S1x128 ![1] bcast_S128_S1x128_1 b) (ix2 p q)
      = b (ix1 q) := by
  rw [broadcastInDim_apply _ bcast_S1x128_S50000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])]
  exact broadcastInDim_apply _ bcast_S128_S1x128_1 b (ix2 (0 : Fin 1) q) (ix1 q) (fun a => match a with
    | ⟨0, _⟩ => by show q.val = if (128 : Nat) = 1 then 0 else q.val; rw [if_neg (by decide)])

/-- The same for the `[2]` output bias down 512 rows. -/
theorem out_bias_row_apply (b : FVec Ideal S2 .f32) (p : Fin 512) (q : Fin 2) :
    broadcastInDim S512x2 ![0, 1] bcast_S1x2_S512x2_0_1 (broadcastInDim S1x2 ![1] bcast_S2_S1x2_1 b) (ix2 p q)
      = b (ix1 q) := by
  rw [broadcastInDim_apply _ bcast_S1x2_S512x2_0_1 _ (ix2 p q) (ix2 (0 : Fin 1) q) (fun a => match a with
    | ⟨0, _⟩ => by show 0 = if (1 : Nat) = 1 then 0 else p.val; rw [if_pos rfl]
    | ⟨1, _⟩ => by show q.val = if (2 : Nat) = 1 then 0 else q.val; rw [if_neg (by decide)])]
  exact broadcastInDim_apply _ bcast_S2_S1x2_1 b (ix2 (0 : Fin 1) q) (ix1 q) (fun a => match a with
    | ⟨0, _⟩ => by show q.val = if (2 : Nat) = 1 then 0 else q.val; rw [if_neg (by decide)])

/-- The broadcast zero constant reads the zero word everywhere. -/
theorem zero_apply (i : S50000x128.Idx) :
    broadcastInDim S50000x128 ![] bcast_S_S50000x128 (constant (F := Ideal) S_ .f32 0x00000000#32) i
      = Ideal.ofBits .f32 0x00000000#32 :=
  broadcastInDim_apply _ bcast_S_S50000x128 _ i ix0 (fun a => a.elim0)

/-! ## The dense steps -/

/-- The reference's layer 1: `max ((mean·W_l + bias) + h·W_r, 0)`, as the program spells it. -/
def layer1 (mean h : FVec Ideal S50000x64 .f32) (wl : FVec Ideal S64x128 .f32) (b : FVec Ideal S128 .f32)
    (wr : FVec Ideal S64x128 .f32) : FVec Ideal S50000x128 .f32 :=
  maximumf (addf (addf (Host.dotGeneral D1 none mean wl) (broadcastInDim S50000x128 ![0, 1] bcast_S1x128_S50000x128_0_1 (broadcastInDim S1x128 ![1] bcast_S128_S1x128_1 b))) (Host.dotGeneral D1 none h wr)) (broadcastInDim S50000x128 ![] bcast_S_S50000x128 (constant S_ .f32 0x00000000#32))

/-- It is the layer function of the specification. -/
theorem layer1_eq (mean h : FVec Ideal S50000x64 .f32) (wl : FVec Ideal S64x128 .f32) (b : FVec Ideal S128 .f32)
    (wr : FVec Ideal S64x128 .f32) :
    layer1 mean h wl b wr = Cert.Sage.layer (n := 50000) (k := 64) (b := 128) mean h wl wr (fun q => b (ix1 q)) := by
  unfold layer1
  exact Cert.Sage.host_layer_eq D1 rfl rfl Read.lhs_main_v30_0 Read.lhs_main_v30_1 Read.rhs_main_v30_0 Read.rhs_main_v30_1
    mean h wl wr (fun q => b (ix1 q)) _ _ (fun p q => bias_row_apply b p q) (fun i => zero_apply i)

/-- The reference's layer 2: `max ((mean·W_l + bias) + h·W_r, 0)`, as the program spells it. -/
def layer2 (mean h : FVec Ideal S50000x128 .f32) (wl : FVec Ideal S128x128 .f32) (b : FVec Ideal S128 .f32)
    (wr : FVec Ideal S128x128 .f32) : FVec Ideal S50000x128 .f32 :=
  maximumf (addf (addf (Host.dotGeneral D2 none mean wl) (broadcastInDim S50000x128 ![0, 1] bcast_S1x128_S50000x128_0_1 (broadcastInDim S1x128 ![1] bcast_S128_S1x128_1 b))) (Host.dotGeneral D2 none h wr)) (broadcastInDim S50000x128 ![] bcast_S_S50000x128 (constant S_ .f32 0x00000000#32))

/-- It is the layer function of the specification. -/
theorem layer2_eq (mean h : FVec Ideal S50000x128 .f32) (wl : FVec Ideal S128x128 .f32) (b : FVec Ideal S128 .f32)
    (wr : FVec Ideal S128x128 .f32) :
    layer2 mean h wl b wr = Cert.Sage.layer (n := 50000) (k := 128) (b := 128) mean h wl wr (fun q => b (ix1 q)) := by
  unfold layer2
  exact Cert.Sage.host_layer_eq D2 rfl rfl Read.lhs_main_v56_0 Read.lhs_main_v56_1 Read.rhs_main_v56_0 Read.rhs_main_v56_1
    mean h wl wr (fun q => b (ix1 q)) _ _ (fun p q => bias_row_apply b p q) (fun i => zero_apply i)

/-- The reference's projection `pooled·W_out + bias`, as the program spells it. -/
def projOut (p : FVec Ideal S512x128 .f32) (w : FVec Ideal S128x2 .f32) (b : FVec Ideal S2 .f32) : FVec Ideal S512x2 .f32 :=
  addf (Host.dotGeneral D3 none p w) (broadcastInDim S512x2 ![0, 1] bcast_S1x2_S512x2_0_1 (broadcastInDim S1x2 ![1] bcast_S2_S1x2_1 b))

theorem projOut_eq (p : FVec Ideal S512x128 .f32) (w : FVec Ideal S128x2 .f32) (b : FVec Ideal S2 .f32) :
    projOut p w b = Cert.Sage.proj (n := 512) (k := 128) (b := 2) p w (fun q => b (ix1 q)) := by
  unfold projOut
  exact Cert.Sage.host_proj_eq D3 rfl rfl Read.lhs_main_v75_0 Read.lhs_main_v75_1 Read.rhs_main_v75_0 Read.rhs_main_v75_1
    p w (fun q => b (ix1 q)) _ (fun p q => out_bias_row_apply b p q)

/-! ## The composite -/

/-- Node features after the first layer. -/
def feat1 (x : IVec S50000 32) (e : IVec S2x800000 32) (tbl : FVec Ideal S100000x64 .f32)
    (w1l : FVec Ideal S64x128 .f32) (b1 : FVec Ideal S128 .f32) (w1r : FVec Ideal S64x128 .f32) : FVec Ideal S50000x128 .f32 :=
  layer1 (Glue.meanAgg64 (Glue.srcIdx e) (Glue.dstIdx e) (Glue.embed x tbl)) (Glue.embed x tbl) w1l b1 w1r

/-- Node features after the second layer. -/
def feat2 (x : IVec S50000 32) (e : IVec S2x800000 32) (tbl : FVec Ideal S100000x64 .f32)
    (w1l : FVec Ideal S64x128 .f32) (b1 : FVec Ideal S128 .f32) (w1r : FVec Ideal S64x128 .f32)
    (w2l : FVec Ideal S128x128 .f32) (b2 : FVec Ideal S128 .f32) (w2r : FVec Ideal S128x128 .f32) : FVec Ideal S50000x128 .f32 :=
  layer2 (Glue.meanAgg128 (Glue.srcIdx e) (Glue.dstIdx e) (feat1 x e tbl w1l b1 w1r)) (feat1 x e tbl w1l b1 w1r) w2l b2 w2r

/-- The reference's result. -/
def result (x : IVec S50000 32) (e : IVec S2x800000 32) (batch : IVec S50000 32) (tbl : FVec Ideal S100000x64 .f32)
    (w1l : FVec Ideal S64x128 .f32) (b1 : FVec Ideal S128 .f32) (w1r : FVec Ideal S64x128 .f32)
    (w2l : FVec Ideal S128x128 .f32) (b2 : FVec Ideal S128 .f32) (w2r : FVec Ideal S128x128 .f32)
    (wout : FVec Ideal S128x2 .f32) (bout : FVec Ideal S2 .f32) : FVec Ideal S512x2 .f32 :=
  projOut (Glue.pool batch (feat2 x e tbl w1l b1 w1r w2l b2 w2r)) wout bout

set_option maxRecDepth 16384 in
/-- The run's composed term is this composite of the argument arrays. -/
theorem res_eq (m : (ℓ : Loc nD τ sig) → Buf (Elt Ideal) ℓ) (c : Dev nD) :
    Cert.ReferenceIdeal.Value.res_main_v78 (F := Ideal) m c
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) := by
  unfold Cert.ReferenceIdeal.Value.res_main_v78
  rfl

end Cert.ReferenceIdeal.RefValue

end
-- ==== Proof.Bridge.lean ====
/-
  The two results are one function of the argument arrays.

  Both composites apply the same graph operations between the dense steps, and each dense step of the reference is the
  specification's layer (or projection), which is what each kernel region leaves.
-/
import proofs.«127018_j88648124990605_1_alg».proof.Proof.RefValue
import proofs.«127018_j88648124990605_1_alg».proof.Proof.KernelValue

noncomputable section

namespace Cert.Bridge

open Cert.KernelIdeal Idealize.ShloMosaic

set_option maxRecDepth 16384 in
/-- The reference's composite equals the kernel's, for any argument arrays. -/
theorem results_agree (x : IVec S50000 32) (e : IVec S2x800000 32) (batch : IVec S50000 32) (tbl : FVec Ideal S100000x64 .f32)
    (w1l : FVec Ideal S64x128 .f32) (b1 : FVec Ideal S128 .f32) (w1r : FVec Ideal S64x128 .f32)
    (w2l : FVec Ideal S128x128 .f32) (b2 : FVec Ideal S128 .f32) (w2r : FVec Ideal S128x128 .f32)
    (wout : FVec Ideal S128x2 .f32) (bout : FVec Ideal S2 .f32) :
    Cert.ReferenceIdeal.RefValue.result x e batch tbl w1l b1 w1r w2l b2 w2r wout bout
      = Cert.KernelIdeal.KValue.result x e batch tbl w1l b1 w1r w2l b2 w2r wout bout := by
  unfold Cert.ReferenceIdeal.RefValue.result Cert.ReferenceIdeal.RefValue.feat2 Cert.ReferenceIdeal.RefValue.feat1
  rw [Cert.ReferenceIdeal.RefValue.projOut_eq, Cert.ReferenceIdeal.RefValue.layer2_eq, Cert.ReferenceIdeal.RefValue.layer1_eq]
  rfl

end Cert.Bridge

end
-- ==== Proof.lean ====
/-
  The certificate of a two-layer mean-aggregation graph network with mean pooling and a linear head.

  Both programs look up an embedding row per node, then twice aggregate neighbour features along the edge list and
  apply `max (mean·W_l + h·W_r + bias, 0)`, then average node features per graph and apply `pooled·W_out + bias`.
  The kernel runs the three dense steps as pipelined regions (the two layers cut into ten blocks of 5000 rows, the
  matrix units fed narrowed operands — the identity on extended reals — and the bias added after both products);
  the reference runs them as host contractions, the bias added between the two products.  The graph operations
  between the dense steps are literally the same in both programs.  On the extended reals the two orders of the
  three-term sum agree (addition is commutative and associative, also at the infinities), so the results are equal
  entry by entry for ANY argument arrays: finiteness of the inputs is not used.

  The frames are the generated ones; the idealization rewrote no operation, so `preserves` has no conjunct.
-/
import proofs.«127018_j88648124990605_1_alg».proof.Defs
import proofs.«127018_j88648124990605_1_alg».proof.Proof.Gen.Kernel
import proofs.«127018_j88648124990605_1_alg».proof.Proof.Gen.Kernel.Skeleton
import proofs.«127018_j88648124990605_1_alg».proof.Proof.Gen.Kernel.Launch
import proofs.«127018_j88648124990605_1_alg».proof.Proof.Gen.Kernel.Points
import proofs.«127018_j88648124990605_1_alg».proof.Proof.Gen.Kernel.Frame
import proofs.«127018_j88648124990605_1_alg».proof.Proof.Gen.KernelIdeal
import proofs.«127018_j88648124990605_1_alg».proof.Proof.Gen.KernelIdeal.Skeleton
import proofs.«127018_j88648124990605_1_alg».proof.Proof.Gen.KernelIdeal.Launch
import proofs.«127018_j88648124990605_1_alg».proof.Proof.Gen.KernelIdeal.Points
import proofs.«127018_j88648124990605_1_alg».proof.Proof.Gen.KernelIdeal.Frame
import proofs.«127018_j88648124990605_1_alg».proof.Proof.Gen.ReferenceIdeal
import proofs.«127018_j88648124990605_1_alg».proof.Proof.Gen.Pre_finite_inputs
import proofs.«127018_j88648124990605_1_alg».proof.Proof.Gen.ReferenceIdeal.Run
import proofs.«127018_j88648124990605_1_alg».proof.Proof.Gen.ReferenceIdeal.Read
import proofs.«127018_j88648124990605_1_alg».proof.Proof.KernelRun
import proofs.«127018_j88648124990605_1_alg».proof.Proof.KernelValue
import proofs.«127018_j88648124990605_1_alg».proof.Proof.RefValue
import proofs.«127018_j88648124990605_1_alg».proof.Proof.Bridge
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the same result: the kernel's result
    buffer holds the composite of its arguments, the reference's holds its own composite of the same arrays, and the
    two composites are one function. -/
theorem algebraic : Cert.algebraic_KernelIdeal_ReferenceIdeal := by
  intro m ρ m' ρ' _ hagree
  refine ⟨fun c => Cert.KernelIdeal.KValue.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.KValue.result_eq m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.RefValue.res_eq m' c]
    obtain ⟨h0, h1, h2, h3, h4, h5, h6, h7, h8, h9, h10, h11⟩ := hagree c
    rw [h0, h1, h2, h3, h4, h5, h6, h7, h8, h9, h10, h11]
    exact Cert.Bridge.results_agree _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
